-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S64x40 : Shape := ⟨2, ![64, 40]⟩
abbrev S40 : Shape := ⟨1, ![40]⟩
abbrev S1200000 : Shape := ⟨1, ![1200000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg4
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x64 .f32) (main_arg1 : FVec F S64x64 .f32) (main_arg2 : FVec F S64 .f32) (main_arg3 : FVec F S64x40 .f32) (main_arg4 : FVec F S40 .f32) (main_arg5 : IVec S1200000 32) (main_arg6 : IVec S1200000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg3
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg4 main_v13 main_v16
-- ==== Kernel.lean ====
abbrev S100000x64 : Shape := ⟨2, ![100000, 64]⟩
abbrev S64x64 : Shape := ⟨2, ![64, 64]⟩
abbrev S64 : Shape := ⟨1, ![64]⟩
abbrev S64x40 : Shape := ⟨2, ![64, 40]⟩
abbrev S40 : Shape := ⟨1, ![40]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S1200000x64 : Shape := ⟨2, ![1200000, 64]⟩
abbrev S10000x64 : Shape := ⟨2, ![10000, 64]⟩
abbrev S1x64 : Shape := ⟨2, ![1, 64]⟩
abbrev S100000x40 : Shape := ⟨2, ![100000, 40]⟩
abbrev S10000x40 : Shape := ⟨2, ![10000, 40]⟩
abbrev S1x40 : Shape := ⟨2, ![1, 40]⟩

abbrev nBuf : Space → Nat
  | .hbm => 59
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S64x40, .f32⟩
  | .hbm, ⟨4, _⟩ => ⟨S40, .f32⟩
  | .hbm, ⟨5, _⟩ => ⟨S1200000, .i32⟩
  | .hbm, ⟨6, _⟩ => ⟨S1200000, .i32⟩
  | .hbm, ⟨7, _⟩ => ⟨S_, .f32⟩
  | .hbm, ⟨8, _⟩ => ⟨S1200000, .f32⟩
  | .hbm, ⟨9, _⟩ => ⟨S_, .f32⟩
  | .hbm, ⟨10, _⟩ => ⟨S100000, .f32⟩
  | .hbm, ⟨11, _⟩ => ⟨S1200000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .i1⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S1200000, .i32⟩
  | .hbm, ⟨29, _⟩ => ⟨S1200000, .i1⟩
  | .hbm, ⟨30, _⟩ => ⟨S_, .i32⟩
  | .hbm, ⟨31, _⟩ => ⟨S1200000, .i32⟩
  | .hbm, ⟨32, _⟩ => ⟨S1200000, .i32⟩
  | .hbm, ⟨33, _⟩ => ⟨S1200000, .i32⟩
  | .hbm, ⟨34, _⟩ => ⟨S1200000x1, .i32⟩
  | .hbm, ⟨35, _⟩ => ⟨S1200000x64, .f32⟩
  | .hbm, ⟨36, _⟩ => ⟨S_, .f32⟩
  | .hbm, ⟨37, _⟩ => ⟨S100000x64, .f32⟩
  | .hbm, ⟨38, _⟩ => ⟨S1200000x1, .i32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S_, .i32⟩
  | .hbm, ⟨44, _⟩ => ⟨S1200000, .i32⟩
  | .hbm, ⟨45, _⟩ => ⟨S1200000, .i1⟩
  | .hbm, ⟨46, _⟩ => ⟨S_, .i32⟩
  | .hbm, ⟨47, _⟩ => ⟨S1200000, .i32⟩
  | .hbm, ⟨48, _⟩ => ⟨S1200000, .i32⟩
  | .hbm, ⟨49, _⟩ => ⟨S1200000, .i32⟩
  | .hbm, ⟨50, _⟩ => ⟨S1200000x1, .i32⟩
  | .hbm, ⟨51, _⟩ => ⟨S1200000x64, .f32⟩
  | .hbm, ⟨52, _⟩ => ⟨S_, .f32⟩
  | .hbm, ⟨53, _⟩ => ⟨S100000x64, .f32⟩
  | .hbm, ⟨54, _⟩ => ⟨S1200000x1, .i32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S100000x40, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x40, .f32⟩
  | .local _ .vmem, ⟨9, _⟩ => ⟨S40, .f32⟩
  | .local _ .vmem, ⟨10, _⟩ => ⟨S10000x40, .f32⟩
  | .local _ .vmem, ⟨11, _⟩ => ⟨S10000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_call0_v0 : Ref sig .tc := ⟨.hbm, 23, rfl⟩
abbrev main_call0_v1 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_7 : Ref sig .tc := ⟨.hbm, 43, rfl⟩
abbrev main_v25 : Ref sig .tc := ⟨.hbm, 44, rfl⟩
abbrev main_v26 : Ref sig .tc := ⟨.hbm, 45, rfl⟩
abbrev main_c_8 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_9 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x40_S64x40_0_0 : ∀ a, (![0, 0] : Fin 2 → Nat) a + S64x40.size a ≤ S64x40.size a
  h_S64x40 : 0 < S64x40.numel
  inb_S40_S40_0 : ∀ a, (![0] : Fin 1 → Nat) a + S40.size a ≤ S40.size a
  h_S40 : 0 < S40.numel
  shapeCasts_S40_S1x40 : S40.ShapeCasts S1x40
  broadcasts_S1x40_S10000x40 : S1x40.Broadcasts S10000x40
  inb_S10000x40_S10000x40_0_0 : ∀ a, (![0, 0] : Fin 2 → Nat) a + S10000x40.size a ≤ S10000x40.size a
  h_S10000x40 : 0 < S10000x40.numel
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S10000x64_S64x64_S10000x64_1_0_0_1_n_n_wf : DotDims.WF S10000x64 S64x64 S10000x64 [1] [0] [0] [1] [] []
  dot_S10000x64_S64x40_S10000x40_1_0_0_1_n_n_wf : DotDims.WF S10000x64 S64x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x40.size a ≤ S64x40.size a
  hwx1_1 : ∀ i : grid1.Coords, EltTy.bits .f32 = 32 ∨ (Rect.block (s := S64x40) S64x40.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S40.size a ≤ S40.size a
  hwx1_2 : ∀ i : grid1.Coords, EltTy.bits .f32 = 32 ∨ (Rect.block (s := S40) S40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x40.size a ≤ S100000x40.size a
  hwx1_3 : ∀ i : grid1.Coords, EltTy.bits .f32 = 32 ∨ (Rect.block (s := S100000x40) S10000x40.size (cc1_transform_3 i) (hinb1_3 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf

abbrev win0_0 : Pipeline.Window sig grid0 :=
  Pipeline.Window.ofSpec (Memref.whole main_v23) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v36) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S10000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S64x40 : Shape := ⟨2, ![64, 40]⟩
abbrev S40 : Shape := ⟨1, ![40]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S1200000x64 : Shape := ⟨2, ![1200000, 64]⟩
abbrev S1x64 : Shape := ⟨2, ![1, 64]⟩
abbrev S100000x40 : Shape := ⟨2, ![100000, 40]⟩
abbrev S1x40 : Shape := ⟨2, ![1, 40]⟩

abbrev nBuf : Space → Nat
  | .hbm => 68
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S64x40, .f32⟩
  | .hbm, ⟨4, _⟩ => ⟨S40, .f32⟩
  | .hbm, ⟨5, _⟩ => ⟨S1200000, .i32⟩
  | .hbm, ⟨6, _⟩ => ⟨S1200000, .i32⟩
  | .hbm, ⟨7, _⟩ => ⟨S_, .f32⟩
  | .hbm, ⟨8, _⟩ => ⟨S1200000, .f32⟩
  | .hbm, ⟨9, _⟩ => ⟨S_, .f32⟩
  | .hbm, ⟨10, _⟩ => ⟨S100000, .f32⟩
  | .hbm, ⟨11, _⟩ => ⟨S1200000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .i1⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S1200000, .i32⟩
  | .hbm, ⟨29, _⟩ => ⟨S1200000, .i1⟩
  | .hbm, ⟨30, _⟩ => ⟨S_, .i32⟩
  | .hbm, ⟨31, _⟩ => ⟨S1200000, .i32⟩
  | .hbm, ⟨32, _⟩ => ⟨S1200000, .i32⟩
  | .hbm, ⟨33, _⟩ => ⟨S1200000, .i32⟩
  | .hbm, ⟨34, _⟩ => ⟨S1200000x1, .i32⟩
  | .hbm, ⟨35, _⟩ => ⟨S1200000x64, .f32⟩
  | .hbm, ⟨36, _⟩ => ⟨S_, .f32⟩
  | .hbm, ⟨37, _⟩ => ⟨S100000x64, .f32⟩
  | .hbm, ⟨38, _⟩ => ⟨S1200000x1, .i32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000x64, .f32⟩
  | .hbm, ⟨48, _⟩ => ⟨S100000x64, .f32⟩
  | .hbm, ⟨49, _⟩ => ⟨S_, .i32⟩
  | .hbm, ⟨50, _⟩ => ⟨S1200000, .i32⟩
  | .hbm, ⟨51, _⟩ => ⟨S1200000, .i1⟩
  | .hbm, ⟨52, _⟩ => ⟨S_, .i32⟩
  | .hbm, ⟨53, _⟩ => ⟨S1200000, .i32⟩
  | .hbm, ⟨54, _⟩ => ⟨S1200000, .i32⟩
  | .hbm, ⟨55, _⟩ => ⟨S1200000, .i32⟩
  | .hbm, ⟨56, _⟩ => ⟨S1200000x1, .i32⟩
  | .hbm, ⟨57, _⟩ => ⟨S1200000x64, .f32⟩
  | .hbm, ⟨58, _⟩ => ⟨S_, .f32⟩
  | .hbm, ⟨59, _⟩ => ⟨S100000x64, .f32⟩
  | .hbm, ⟨60, _⟩ => ⟨S1200000x1, .i32⟩
  | .hbm, ⟨61, _⟩ => ⟨S100000x64, .f32⟩
  | .hbm, ⟨62, _⟩ => ⟨S100000x64, .f32⟩
  | .hbm, ⟨63, _⟩ => ⟨S100000x64, .f32⟩
  | .hbm, ⟨64, _⟩ => ⟨S100000x40, .f32⟩
  | .hbm, ⟨65, _⟩ => ⟨S1x40, .f32⟩
  | .hbm, ⟨66, _⟩ => ⟨S100000x40, .f32⟩
  | .hbm, ⟨67, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_call0_v0 : Ref sig .tc := ⟨.hbm, 23, rfl⟩
abbrev main_call0_v1 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call1_cst : Ref sig .tc := ⟨.hbm, 46, rfl⟩
abbrev main_call1_v0 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_c_8 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_9 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.KerRun.lean ====
/-
  The idealized kernel program's run with its result named.

  The program is six segments — three stretches of array operations, the first kernel region, one more stretch, the
  second kernel region — and every weakly fair execution of it terminates with every buffer the program keeps at the
  contents the segments' fold leaves there: the result buffer at what the second region's write-backs leave, the seven
  argument buffers as launched (no stretch and no region writes one).
-/
import proofs.«118038_j12618613915856_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the contents
    the last segment boundary gives it and the arguments end as launched. -/
theorem run_result : θ_run defs (onTc (τ := τ) (main (F := F))) ⟨m, fun _ => 0, ρ⟩ (fun r => ∀ c : Dev nD,
      r.2.mem ((c.tc : Thread nD τ).loc main_v37) = W6 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v37 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.Run

end
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.KerBody.lean ====
/-
  What one grid step of each kernel stores, read at an entry.

  A grid step of the first kernel loads a block of 10000 rows of the aggregated features, the whole 64×64 weight
  matrix and the bias, and stores `max (rows · W + b) 0`; a step of the second loads 10000 rows, the 64×40 weights
  and its bias and stores `rows · W + b`. On the extended reals the rounding of the two matrix factors to bfloat16
  is the identity, the product accumulated into the zero splat is the plain sum of products, and the bias — a vector
  cast to one row and laid along every row — is read at its column. So entry (p, q) of what a step stores is
  `∑ c, x p c · w c q + b q` (clamped below at zero in the first kernel).
-/
import proofs.«118038_j12618613915856_1_alg».proof.Proof.Gen.KernelIdeal.Skeleton
import proofs.«118038_j12618613915856_1_alg».proof.Proof.LibMatmulPlain
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- A bias vector cast to one row and laid along every row reads, at (p, q), the vector at q. -/
theorem bias_rows_apply {a n : ℕ} (b : FVec Ideal ⟨1, ![n]⟩ .f32) (h1 : (⟨1, ![n]⟩ : Shape).ShapeCasts ⟨2, ![1, n]⟩)
    (hb : (⟨2, ![1, n]⟩ : Shape).Broadcasts ⟨2, ![a, n]⟩) (p : Fin a) (q : Fin n) :
    broadcastTo ⟨2, ![a, n]⟩ (shapeCast ⟨2, ![1, n]⟩ b h1) hb (ix2 p q) = b (ix1 q) :=
  (broadcastTo_1b_ab_apply _ hb p q).trans (shapeCast_a_1a_apply b h1 0 q)

/-- Entry (p, q) of what a step of the first kernel stores: row p of the block times column q of the weights, plus
    the bias at q, clamped below at zero. -/
theorem pay0_apply (x0 : FVec Ideal S10000x64 .f32) (x1 : FVec Ideal S64x64 .f32) (x2 : FVec Ideal S64 .f32)
    (p : Fin 10000) (q : Fin 64) :
    k0_pay1 (F := Ideal) x0 x1 x2 (ix2 p q)
      = max ((∑ c : Fin 64, x0 (ix2 p c) * x1 (ix2 c q)) + x2 (ix1 q)) (Ideal.ofBits .f32 0x00000000#32) := by
  unfold k0_pay1
  rw [shapeCast_self]
  refine congrArg₂ max (congrArg₂ (· + ·) ?_ ?_) rfl
  · exact Cert.LibMatmulPlain.matmul_plain_zero_apply none x0 x1 p q
  · exact bias_rows_apply x2 shapeCasts_S64_S1x64 broadcasts_S1x64_S10000x64 p q

/-- Entry (p, q) of what a step of the second kernel stores: row p of the block times column q of the weights, plus
    the bias at q. -/
theorem pay1_apply (x0 : FVec Ideal S10000x64 .f32) (x1 : FVec Ideal S64x40 .f32) (x2 : FVec Ideal S40 .f32)
    (p : Fin 10000) (q : Fin 40) :
    k1_pay1 (F := Ideal) x0 x1 x2 (ix2 p q)
      = (∑ c : Fin 64, x0 (ix2 p c) * x1 (ix2 c q)) + x2 (ix1 q) := by
  unfold k1_pay1
  rw [shapeCast_self]
  refine congrArg₂ (· + ·) ?_ ?_
  · exact Cert.LibMatmulPlain.matmul_plain_zero_apply none x0 x1 p q
  · exact bias_rows_apply x2 shapeCasts_S40_S1x40 broadcasts_S1x40_S10000x40 p q

end Cert.KernelIdeal.Body

end
-- ==== Proof.Spec.lean ====
/-
  The mathematics both programs compute, as functions of whole arrays, entry by entry, on the extended reals.

  The network is two graph-convolution layers. Each layer first replaces every node's feature row by the mean of
  the rows of its in-neighbours (a gather along the edges' sources, a sum into the edges' targets, a division by the
  in-degree): that part is the same chain of array operations in both programs and is never opened here. What
  differs is how the dense layer that follows is evaluated, and its value is stated here once:

  * `denseRelu X W b` — entry (r, q) is `max (∑ c, X r c · W c q + b q) 0`, a 64→64 layer followed by relu;
  * `dense X W b`     — entry (r, q) is `∑ c, X r c · W c q + b q`, the closing 64→40 layer.

  The zero of the relu is kept as the word it is printed with.
-/
import Idealize.ShloMosaic.Lib.ValueIdx
import Idealize.ShloMosaic.PureOps.Ideal

noncomputable section

open scoped BigOperators

namespace Cert.GcnSpec

open Idealize.ShloMosaic Idealize.ShloMosaic.ValueIdx

/-- The hidden layer on 100000 rows: row `r` times the 64×64 weights, plus the bias, clamped below at zero. -/
def denseRelu (X : FVec Ideal ⟨2, ![100000, 64]⟩ .f32) (W : FVec Ideal ⟨2, ![64, 64]⟩ .f32) (b : FVec Ideal ⟨1, ![64]⟩ .f32) :
    FVec Ideal ⟨2, ![100000, 64]⟩ .f32 :=
  fun j => max ((∑ c : Fin 64, X (ix2 (j 0) c) * W (ix2 c (j 1))) + b (ix1 (j 1))) (Ideal.ofBits .f32 0x00000000#32)

/-- The output layer on 100000 rows: row `r` times the 64×40 weights, plus the bias. -/
def dense (X : FVec Ideal ⟨2, ![100000, 64]⟩ .f32) (W : FVec Ideal ⟨2, ![64, 40]⟩ .f32) (b : FVec Ideal ⟨1, ![40]⟩ .f32) :
    FVec Ideal ⟨2, ![100000, 40]⟩ .f32 :=
  fun j => (∑ c : Fin 64, X (ix2 (j 0) c) * W (ix2 c (j 1))) + b (ix1 (j 1))

theorem denseRelu_apply (X : FVec Ideal ⟨2, ![100000, 64]⟩ .f32) (W : FVec Ideal ⟨2, ![64, 64]⟩ .f32) (b : FVec Ideal ⟨1, ![64]⟩ .f32)
    (r : Fin 100000) (q : Fin 64) :
    denseRelu X W b (ix2 r q) = max ((∑ c : Fin 64, X (ix2 r c) * W (ix2 c q)) + b (ix1 q)) (Ideal.ofBits .f32 0x00000000#32) := rfl

theorem dense_apply (X : FVec Ideal ⟨2, ![100000, 64]⟩ .f32) (W : FVec Ideal ⟨2, ![64, 40]⟩ .f32) (b : FVec Ideal ⟨1, ![40]⟩ .f32)
    (r : Fin 100000) (q : Fin 40) :
    dense X W b (ix2 r q) = (∑ c : Fin 64, X (ix2 r c) * W (ix2 c q)) + b (ix1 q) := rfl

end Cert.GcnSpec

end
-- ==== Proof.KerBlocks.lean ====
/-
  From blocks to arrays: what each of the two kernel regions leaves in its result array, as one function of the
  arrays it finds when it is entered.

  Both regions run over ten grid points; point `t` reads rows `10000 t … 10000 t + 9999` of its input array, the whole
  weight matrix and the whole bias, and writes the same rows of its result. By the body's entry formula the block a
  point writes back is that block of the dense layer's whole-array value; the ten blocks tile the 100000 rows (row
  `r` lies in the block of point `r / 10000`); so the result array ends holding the layer's value.
-/
import proofs.«118038_j12618613915856_1_alg».proof.Proof.Gen.KernelIdeal.Frame
import proofs.«118038_j12618613915856_1_alg».proof.Proof.KerBody
import proofs.«118038_j12618613915856_1_alg».proof.Proof.Spec
import Idealize.ShloMosaic.Lib.Pipeline.Value
import Idealize.ShloMosaic.Lib.ValueIdx

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.GcnSpec
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## The hidden-layer kernel (region 0) -/

/-- The printed index maps of region 0, decided over its ten grid points: the row-block windows sit at block row `t`,
    the weights and the bias at block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- Entry (p, k) of the input rows' block at point `t` sits at row `10000 t + p` of the array. -/
theorem emb0_0 (t : Fin cfg0.N) (p : Fin 10000) (k : Fin 64) (r : Fin 100000) (hr : r.val = 10000 * t.val + p.val) :
    ((cfg0.win 0).blk t).view.emb (ix2 p k) = (ix2 r k : S100000x64.Idx) := by
  obtain ⟨e0, e1, -⟩ := idx_facts0 t
  funext a; apply Fin.ext
  match a with
  | ⟨0, _⟩ => show win0_0.index t (0 : Fin 2) * 10000 + 1 * p.val = r.val; rw [e0, hr]; omega
  | ⟨1, _⟩ => show win0_0.index t (1 : Fin 2) * 64 + 1 * k.val = k.val; rw [e1]; omega

/-- The weights' block is the whole matrix at every point. -/
theorem emb0_1 (t : Fin cfg0.N) (k : Fin 64) (q : Fin 64) :
    ((cfg0.win 1).blk t).view.emb (ix2 k q) = (ix2 k q : S64x64.Idx) := by
  obtain ⟨-, -, e2, e3, -⟩ := idx_facts0 t
  funext a; apply Fin.ext
  match a with
  | ⟨0, _⟩ => show win0_1.index t (0 : Fin 2) * 64 + 1 * k.val = k.val; rw [e2]; omega
  | ⟨1, _⟩ => show win0_1.index t (1 : Fin 2) * 64 + 1 * q.val = q.val; rw [e3]; omega

/-- The bias's block is the whole vector at every point. -/
theorem emb0_2 (t : Fin cfg0.N) (q : Fin 64) :
    ((cfg0.win 2).blk t).view.emb (ix1 q) = (ix1 q : S64.Idx) := by
  obtain ⟨-, -, -, -, e4, -⟩ := idx_facts0 t
  funext a; apply Fin.ext
  match a with
  | ⟨0, _⟩ => show win0_2.index t (0 : Fin 1) * 64 + 1 * q.val = q.val; rw [e4]; omega

/-- Entry (p, q) of the output's block at point `t` sits at row `10000 t + p` of the result array. -/
theorem emb0_3 (t : Fin cfg0.N) (p : Fin 10000) (q : Fin 64) (r : Fin 100000) (hr : r.val = 10000 * t.val + p.val) :
    ((cfg0.win 3).blk t).view.emb (ix2 p q) = (ix2 r q : S100000x64.Idx) := by
  obtain ⟨-, -, -, -, -, e5, e6⟩ := idx_facts0 t
  funext a; apply Fin.ext
  match a with
  | ⟨0, _⟩ => show win0_3.index t (0 : Fin 2) * 10000 + 1 * p.val = r.val; rw [e5, hr]; omega
  | ⟨1, _⟩ => show win0_3.index t (1 : Fin 2) * 64 + 1 * q.val = q.val; rw [e6]; omega

/-- What point `t` writes back is block `t` of the layer's whole-array value at the arrays the region finds. -/
theorem flushed0_eq (c : Dev nD) (t : Fin cfg0.N) :
    (dat0 V c).flushed 3 t = ((cfg0.win 3).blk t).view.read (Elt Ideal)
      (denseRelu (V c main_v23) (V c main_arg1) (V c main_arg2)) := by
  show (cfg0.win 3).cut (grid0.coords t) ((dat0 V c).after 3 t) = _
  rw [after0_3]
  unfold out0_3
  rw [View.canon_unit_zero hz2]
  simp only [View.ld_unit_zero (S := S10000x64) hz2, View.ld_unit_zero (S := S64x64) hz2, View.ld_unit_zero (S := S64) hz1]
  funext j
  obtain ⟨p, q, rfl⟩ : ∃ (p : Fin 10000) (q : Fin 64), j = ix2 p q := ⟨j 0, j 1, eq_ix2 j⟩
  have hN : grid0.N = 10 := N_0
  have ht : t.val < 10 := hN ▸ t.isLt
  obtain ⟨r, hr⟩ : ∃ r : Fin 100000, r.val = 10000 * t.val + p.val := ⟨⟨10000 * t.val + p.val, by omega⟩, rfl⟩
  show k0_pay1 (F := Ideal) (iblk0 V c 0 t) (iblk0 V c 1 t) (iblk0 V c 2 t) (ix2 p q)
    = denseRelu (V c main_v23) (V c main_arg1) (V c main_arg2) (((cfg0.win 3).blk t).view.emb (ix2 p q))
  rw [emb0_3 t p q r hr, denseRelu_apply, Body.pay0_apply]
  have h0 : ∀ k : Fin 64, (iblk0 V c 0 t : FVec Ideal S10000x64 .f32) (ix2 p k) = (V c main_v23 : FVec Ideal S100000x64 .f32) (ix2 r k) :=
    fun k => congrArg (V c main_v23 : FVec Ideal S100000x64 .f32) (emb0_0 t p k r hr)
  have h1 : ∀ k : Fin 64, (iblk0 V c 1 t : FVec Ideal S64x64 .f32) (ix2 k q) = (V c main_arg1 : FVec Ideal S64x64 .f32) (ix2 k q) :=
    fun k => congrArg (V c main_arg1 : FVec Ideal S64x64 .f32) (emb0_1 t k q)
  have h2 : (iblk0 V c 2 t : FVec Ideal S64 .f32) (ix1 q) = (V c main_arg2 : FVec Ideal S64 .f32) (ix1 q) :=
    congrArg (V c main_arg2 : FVec Ideal S64 .f32) (emb0_2 t q)
  simp only [h0, h1, h2]

/-- An index of the result array is in point `t`'s block iff each coordinate is in the block's range on its axis. -/
theorem mem_blk0 (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v24).slice (win0_3.rect t)).set ↔ _
  rw [View.set_slice_whole, Rect.mem_set_unit]
  exact Iff.rfl

/-- The ten row blocks cover the result array: row `r` is in the block of point `r / 10000`. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : grid0.N = 10 := N_0
  obtain ⟨t, ht⟩ : ∃ t : Fin cfg0.N, t.val = (i 0).val / 10000 := ⟨⟨(i 0).val / 10000, by show _ < grid0.N; rw [hN]; omega⟩, rfl⟩
  refine ⟨t, flush0_3 t, ?_⟩
  rw [mem_blk0]
  obtain ⟨-, -, -, -, -, e5, e6⟩ := idx_facts0 t
  intro a
  match a with
  | ⟨0, _⟩ => show win0_3.index t (0 : Fin 2) * 10000 ≤ (i 0).val ∧ (i 0).val < win0_3.index t (0 : Fin 2) * 10000 + 10000; rw [e5, ht]; omega
  | ⟨1, _⟩ => show win0_3.index t (1 : Fin 2) * 64 ≤ (i 1).val ∧ (i 1).val < win0_3.index t (1 : Fin 2) * 64 + 64; rw [e6]; omega

/-- After the region its result array holds the layer's value of the arrays the region found. -/
theorem final0 (c : Dev nD) :
    (dat0 V c).arrAt 3 cfg0.N = denseRelu (V c main_v23) (V c main_arg1) (V c main_arg2) :=
  (dat0 V c).arrAt_eq_of_cover 3 _ (fun t _ => flushed0_eq V c t) cover0

/-! ## The output-layer kernel (region 1) -/

/-- The printed index maps of region 1, decided over its ten grid points: the row-block windows sit at block row `t`,
    the weights and the bias at block 0. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0 :=
  (by decide +kernel : ∀ t : Fin grid1.N, _)

/-- Entry (p, k) of the input rows' block at point `t` sits at row `10000 t + p` of the array. -/
theorem emb1_0 (t : Fin cfg1.N) (p : Fin 10000) (k : Fin 64) (r : Fin 100000) (hr : r.val = 10000 * t.val + p.val) :
    ((cfg1.win 0).blk t).view.emb (ix2 p k) = (ix2 r k : S100000x64.Idx) := by
  obtain ⟨e0, e1, -⟩ := idx_facts1 t
  funext a; apply Fin.ext
  match a with
  | ⟨0, _⟩ => show win1_0.index t (0 : Fin 2) * 10000 + 1 * p.val = r.val; rw [e0, hr]; omega
  | ⟨1, _⟩ => show win1_0.index t (1 : Fin 2) * 64 + 1 * k.val = k.val; rw [e1]; omega

/-- The weights' block is the whole matrix at every point. -/
theorem emb1_1 (t : Fin cfg1.N) (k : Fin 64) (q : Fin 40) :
    ((cfg1.win 1).blk t).view.emb (ix2 k q) = (ix2 k q : S64x40.Idx) := by
  obtain ⟨-, -, e2, e3, -⟩ := idx_facts1 t
  funext a; apply Fin.ext
  match a with
  | ⟨0, _⟩ => show win1_1.index t (0 : Fin 2) * 64 + 1 * k.val = k.val; rw [e2]; omega
  | ⟨1, _⟩ => show win1_1.index t (1 : Fin 2) * 40 + 1 * q.val = q.val; rw [e3]; omega

/-- The bias's block is the whole vector at every point. -/
theorem emb1_2 (t : Fin cfg1.N) (q : Fin 40) :
    ((cfg1.win 2).blk t).view.emb (ix1 q) = (ix1 q : S40.Idx) := by
  obtain ⟨-, -, -, -, e4, -⟩ := idx_facts1 t
  funext a; apply Fin.ext
  match a with
  | ⟨0, _⟩ => show win1_2.index t (0 : Fin 1) * 40 + 1 * q.val = q.val; rw [e4]; omega

/-- Entry (p, q) of the output's block at point `t` sits at row `10000 t + p` of the result array. -/
theorem emb1_3 (t : Fin cfg1.N) (p : Fin 10000) (q : Fin 40) (r : Fin 100000) (hr : r.val = 10000 * t.val + p.val) :
    ((cfg1.win 3).blk t).view.emb (ix2 p q) = (ix2 r q : S100000x40.Idx) := by
  obtain ⟨-, -, -, -, -, e5, e6⟩ := idx_facts1 t
  funext a; apply Fin.ext
  match a with
  | ⟨0, _⟩ => show win1_3.index t (0 : Fin 2) * 10000 + 1 * p.val = r.val; rw [e5, hr]; omega
  | ⟨1, _⟩ => show win1_3.index t (1 : Fin 2) * 40 + 1 * q.val = q.val; rw [e6]; omega

/-- What point `t` writes back is block `t` of the layer's whole-array value at the arrays the region finds. -/
theorem flushed1_eq (c : Dev nD) (t : Fin cfg1.N) :
    (dat1 V c).flushed 3 t = ((cfg1.win 3).blk t).view.read (Elt Ideal)
      (dense (V c main_v36) (V c main_arg3) (V c main_arg4)) := by
  show (cfg1.win 3).cut (grid1.coords t) ((dat1 V c).after 3 t) = _
  rw [after1_3]
  unfold out1_3
  rw [View.canon_unit_zero hz2]
  simp only [View.ld_unit_zero (S := S10000x64) hz2, View.ld_unit_zero (S := S64x40) hz2, View.ld_unit_zero (S := S40) hz1]
  funext j
  obtain ⟨p, q, rfl⟩ : ∃ (p : Fin 10000) (q : Fin 40), j = ix2 p q := ⟨j 0, j 1, eq_ix2 j⟩
  have hN : grid1.N = 10 := N_1
  have ht : t.val < 10 := hN ▸ t.isLt
  obtain ⟨r, hr⟩ : ∃ r : Fin 100000, r.val = 10000 * t.val + p.val := ⟨⟨10000 * t.val + p.val, by omega⟩, rfl⟩
  show k1_pay1 (F := Ideal) (iblk1 V c 0 t) (iblk1 V c 1 t) (iblk1 V c 2 t) (ix2 p q)
    = dense (V c main_v36) (V c main_arg3) (V c main_arg4) (((cfg1.win 3).blk t).view.emb (ix2 p q))
  rw [emb1_3 t p q r hr, dense_apply, Body.pay1_apply]
  have h0 : ∀ k : Fin 64, (iblk1 V c 0 t : FVec Ideal S10000x64 .f32) (ix2 p k) = (V c main_v36 : FVec Ideal S100000x64 .f32) (ix2 r k) :=
    fun k => congrArg (V c main_v36 : FVec Ideal S100000x64 .f32) (emb1_0 t p k r hr)
  have h1 : ∀ k : Fin 64, (iblk1 V c 1 t : FVec Ideal S64x40 .f32) (ix2 k q) = (V c main_arg3 : FVec Ideal S64x40 .f32) (ix2 k q) :=
    fun k => congrArg (V c main_arg3 : FVec Ideal S64x40 .f32) (emb1_1 t k q)
  have h2 : (iblk1 V c 2 t : FVec Ideal S40 .f32) (ix1 q) = (V c main_arg4 : FVec Ideal S40 .f32) (ix1 q) :=
    congrArg (V c main_arg4 : FVec Ideal S40 .f32) (emb1_2 t q)
  simp only [h0, h1, h2]

/-- An index of the result array is in point `t`'s block iff each coordinate is in the block's range on its axis. -/
theorem mem_blk1 (t : Fin cfg1.N) (i : S100000x40.Idx) :
    i ∈ ((cfg1.win 3).blk t).view.set ↔ ∀ a : Fin 2, win1_3.index t a * S10000x40.size a ≤ (i a).val ∧ (i a).val < win1_3.index t a * S10000x40.size a + S10000x40.size a := by
  show i ∈ ((View.whole main_v37).slice (win1_3.rect t)).set ↔ _
  rw [View.set_slice_whole, Rect.mem_set_unit]
  exact Iff.rfl

/-- The ten row blocks cover the result array: row `r` is in the block of point `r / 10000`. -/
theorem cover1 (i : S100000x40.Idx) :
    ∃ t : Fin cfg1.N, (cfg1.win 3).flush t = true ∧ i ∈ ((cfg1.win 3).blk t).view.set := by
  have hi0 : (i 0).val < 100000 := (i 0).isLt
  have hi1 : (i 1).val < 40 := (i 1).isLt
  have hN : grid1.N = 10 := N_1
  obtain ⟨t, ht⟩ : ∃ t : Fin cfg1.N, t.val = (i 0).val / 10000 := ⟨⟨(i 0).val / 10000, by show _ < grid1.N; rw [hN]; omega⟩, rfl⟩
  refine ⟨t, flush1_3 t, ?_⟩
  rw [mem_blk1]
  obtain ⟨-, -, -, -, -, e5, e6⟩ := idx_facts1 t
  intro a
  match a with
  | ⟨0, _⟩ => show win1_3.index t (0 : Fin 2) * 10000 ≤ (i 0).val ∧ (i 0).val < win1_3.index t (0 : Fin 2) * 10000 + 10000; rw [e5, ht]; omega
  | ⟨1, _⟩ => show win1_3.index t (1 : Fin 2) * 40 ≤ (i 1).val ∧ (i 1).val < win1_3.index t (1 : Fin 2) * 40 + 40; rw [e6]; omega

/-- After the region its result array holds the layer's value of the arrays the region found. -/
theorem final1 (c : Dev nD) :
    (dat1 V c).arrAt 3 cfg1.N = dense (V c main_v36) (V c main_arg3) (V c main_arg4) :=
  (dat1 V c).arrAt_eq_of_cover 3 _ (fun t _ => flushed1_eq V c t) cover1

end Cert.KernelIdeal.Blocks

end
-- ==== Proof.MeanAgg.lean ====
/-
  The neighbour mean, as the chain of array operations both programs apply.

  `invDeg dst` is the column of reciprocal in-degrees: the edges' targets are counted into 100000 bins (a sum of ones
  scattered along `dst`), and a node with a positive count `d` gets `1 / max d 1`, any other node `0`.
  `meanAgg inv h src dst` gathers the rows of `h` at the edges' sources (a negative index wrapped by the row count),
  sums them into the rows the edges' targets name, and scales row `n` by `inv n`.

  Both programs apply exactly these operations — before the first dense layer to the input features, between the two
  layers to the hidden activations — so the chain is carried as one function of the array it is applied to and is never
  opened: equal arrays in, equal arrays out.
-/
import proofs.«118038_j12618613915856_1_alg».proof.Proof.Gen.KernelIdeal
import Idealize.ShloMosaic.PureOps.Ideal

noncomputable section

namespace Cert.KernelIdeal.MeanAgg

open Cert.KernelIdeal Cert.KernelIdeal.Gen Idealize.ShloMosaic

/-- The reciprocal in-degree of every node, as a column. -/
def invDeg (dst : (⟨S1200000, .i32⟩ : BufTy).Contents (Elt Ideal)) : (⟨S100000x1, .f32⟩ : BufTy).Contents (Elt Ideal) :=
  broadcastInDim S100000x1 ![0] bcast_S100000_S100000x1_0 (select (cmpf (F := Ideal) .ogt (Host.scatterAdd scatter_S100000_S1200000x1_S1200000_n_0_0_1 (broadcastInDim S100000 ![] bcast_S_S100000 (constant (F := Ideal) S_ .f32 0x00000000#32)) (broadcastInDim S1200000x1 ![0] bcast_S1200000_S1200000x1_0 dst) (broadcastInDim S1200000 ![] bcast_S_S1200000 (constant (F := Ideal) S_ .f32 0x3F800000#32))) (broadcastInDim S100000 ![] bcast_S_S100000 (constant (F := Ideal) S_ .f32 0x00000000#32))) (Host.divf (F := Ideal) (broadcastInDim S100000 ![] bcast_S_S100000 (constant (F := Ideal) S_ .f32 0x3F800000#32)) (maximumf (Host.scatterAdd scatter_S100000_S1200000x1_S1200000_n_0_0_1 (broadcastInDim S100000 ![] bcast_S_S100000 (constant (F := Ideal) S_ .f32 0x00000000#32)) (broadcastInDim S1200000x1 ![0] bcast_S1200000_S1200000x1_0 dst) (broadcastInDim S1200000 ![] bcast_S_S1200000 (constant (F := Ideal) S_ .f32 0x3F800000#32))) (broadcastInDim S100000 ![] bcast_S_S100000 (constant (F := Ideal) S_ .f32 0x3F800000#32)))) (broadcastInDim S100000 ![] bcast_S_S100000 (id (constant (F := Ideal) S_ .f32 0x00000000#32))))

/-- The rows of `h` at the edges' sources, summed into the edges' targets and scaled row by row by `inv`. -/
def meanAgg (inv : (⟨S100000x1, .f32⟩ : BufTy).Contents (Elt Ideal)) (h : (⟨S100000x64, .f32⟩ : BufTy).Contents (Elt Ideal))
    (src dst : (⟨S1200000, .i32⟩ : BufTy).Contents (Elt Ideal)) : (⟨S100000x64, .f32⟩ : BufTy).Contents (Elt Ideal) :=
  mulf (Host.scatterAdd scatter_S100000x64_S1200000x1_S1200000x64_1_0_0_1 (broadcastInDim S100000x64 ![] bcast_S_S100000x64 (constant (F := Ideal) S_ .f32 0x00000000#32)) (broadcastInDim S1200000x1 ![0] bcast_S1200000_S1200000x1_0 dst) (Host.gather gather_S100000x64_S1200000x1_S1200000x64_1_0_n_n_0_1_164 h (broadcastInDim S1200000x1 ![0] bcast_S1200000_S1200000x1_0 (select (cmpi .slt src (broadcastInDim S1200000 ![] bcast_S_S1200000 (constantI S_ 32 0#32))) (addi src (broadcastInDim S1200000 ![] bcast_S_S1200000 (constantI S_ 32 100000#32))) src)))) (broadcastInDim S100000x64 ![0, 1] bcast_S100000x1_S100000x64_0_1 inv)

end Cert.KernelIdeal.MeanAgg

end
-- ==== Proof.KerValue.lean ====
/-
  The idealized kernel program's result as one function of its arguments.

  Read backwards from the result buffer: the second region leaves the output layer's value of the array it found in
  its first window and of the last two arguments; that array is the neighbour mean of what the first region left,
  which is the hidden layer's value of the neighbour mean of the input features and of the first two weight
  arguments; the reciprocal in-degrees both means use were computed once, before the first region, and no later
  segment writes their buffer. So with `a = meanAgg (invDeg dst) · src dst` the result is
  `dense (a (denseRelu (a features) W1 b1)) W2 b2`.
-/
import proofs.«118038_j12618613915856_1_alg».proof.Proof.Gen.KernelIdeal.Frame
import proofs.«118038_j12618613915856_1_alg».proof.Proof.KerBlocks
import proofs.«118038_j12618613915856_1_alg».proof.Proof.MeanAgg
import proofs.«118038_j12618613915856_1_alg».proof.Proof.Spec
import Idealize.ShloMosaic.Lib.StableHlo.Run

set_option maxRecDepth 16384

noncomputable section

namespace Cert.KernelIdeal.Result

open Cert.KernelIdeal Cert.KernelIdeal.Gen Cert.KernelIdeal.MeanAgg Cert.GcnSpec
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Before the first region

The operations before the first region come in three stretches (the in-degree count and its reciprocal; the choice
between the reciprocal and zero; the neighbour mean of the features). Each stretch is read once, from ANY contents
`X` of the buffers it starts from, and the three readings are then chained from the launch memory. -/

section Stretches
variable (X : Valuation τ sig (Elt Ideal))

/-- After the first stretch: the mask of the nodes with a positive in-degree, -/
theorem stretch0_mask :
    StableHlo.after hostOps0 X (Proc.devRef .tc main_v5) = cmpf (F := Ideal) .ogt (Host.scatterAdd scatter_S100000_S1200000x1_S1200000_n_0_0_1 (broadcastInDim S100000 ![] bcast_S_S100000 (constant (F := Ideal) S_ .f32 0x00000000#32)) (broadcastInDim S1200000x1 ![0] bcast_S1200000_S1200000x1_0 (X (Proc.devRef .tc main_arg6))) (broadcastInDim S1200000 ![] bcast_S_S1200000 (constant (F := Ideal) S_ .f32 0x3F800000#32))) (broadcastInDim S100000 ![] bcast_S_S100000 (constant (F := Ideal) S_ .f32 0x00000000#32)) := by
  dsimp only [hostOps0]
  after_results

/-- the reciprocals `1 / max d 1`, -/
theorem stretch0_recip :
    StableHlo.after hostOps0 X (Proc.devRef .tc main_v9) = Host.divf (F := Ideal) (broadcastInDim S100000 ![] bcast_S_S100000 (constant (F := Ideal) S_ .f32 0x3F800000#32)) (maximumf (Host.scatterAdd scatter_S100000_S1200000x1_S1200000_n_0_0_1 (broadcastInDim S100000 ![] bcast_S_S100000 (constant (F := Ideal) S_ .f32 0x00000000#32)) (broadcastInDim S1200000x1 ![0] bcast_S1200000_S1200000x1_0 (X (Proc.devRef .tc main_arg6))) (broadcastInDim S1200000 ![] bcast_S_S1200000 (constant (F := Ideal) S_ .f32 0x3F800000#32))) (broadcastInDim S100000 ![] bcast_S_S100000 (constant (F := Ideal) S_ .f32 0x3F800000#32))) := by
  dsimp only [hostOps0]
  after_results

/-- and the zero the other nodes get. -/
theorem stretch0_zero :
    StableHlo.after hostOps0 X (Proc.devRef .tc main_cst_4) = constant (F := Ideal) S_ .f32 0x00000000#32 := by
  dsimp only [hostOps0]
  after_results

/-- After the second stretch: the reciprocal where the mask is set, zero elsewhere. -/
theorem stretch1_choice :
    StableHlo.after hostOps0_1 X (Proc.devRef .tc main_v10)
      = select (X (Proc.devRef .tc main_v5)) (X (Proc.devRef .tc main_v9)) (broadcastInDim S100000 ![] bcast_S_S100000 (id (X (Proc.devRef .tc main_cst_4)))) := by
  dsimp only [hostOps0_1]
  after_results
  rfl

/-- After the third stretch: that vector as a column, -/
theorem stretch2_column :
    StableHlo.after hostOps0_2 X (Proc.devRef .tc main_v11)
      = broadcastInDim S100000x1 ![0] bcast_S100000_S100000x1_0 (X (Proc.devRef .tc main_v10)) := by
  dsimp only [hostOps0_2]
  after_results

set_option maxHeartbeats 4000000 in
/-- and the neighbour mean of the features scaled by it. -/
theorem stretch2_rows :
    StableHlo.after hostOps0_2 X (Proc.devRef .tc main_v23)
      = meanAgg (broadcastInDim S100000x1 ![0] bcast_S100000_S100000x1_0 (X (Proc.devRef .tc main_v10)))
          (X (Proc.devRef .tc main_arg0)) (X (Proc.devRef .tc main_arg5)) (X (Proc.devRef .tc main_arg6)) := by
  unfold meanAgg
  dsimp only [hostOps0_2]
  after_results

end Stretches

/-- The launch memory read at a buffer is the buffer's launch contents. -/
theorem W0_arg6 (c : Dev nD) : W0 m ρ c (Proc.devRef .tc main_arg6) = (m ((c.tc : Thread nD τ).loc main_arg6)) := rfl

/-- The features and both edge lists are as launched after the first two stretches. -/
theorem pre_arg0 (c : Dev nD) : StableHlo.after hostOps0_1 (StableHlo.after hostOps0 (W0 m ρ c)) (Proc.devRef .tc main_arg0) = (m ((c.tc : Thread nD τ).loc main_arg0)) := by
  dsimp only [hostOps0, hostOps0_1]
  after_results
theorem pre_arg5 (c : Dev nD) : StableHlo.after hostOps0_1 (StableHlo.after hostOps0 (W0 m ρ c)) (Proc.devRef .tc main_arg5) = (m ((c.tc : Thread nD τ).loc main_arg5)) := by
  dsimp only [hostOps0, hostOps0_1]
  after_results
theorem pre_arg6 (c : Dev nD) : StableHlo.after hostOps0_1 (StableHlo.after hostOps0 (W0 m ρ c)) (Proc.devRef .tc main_arg6) = (m ((c.tc : Thread nD τ).loc main_arg6)) := by
  dsimp only [hostOps0, hostOps0_1]
  after_results

/-- The column the third stretch makes is the reciprocal in-degrees of the launched edge targets. -/
theorem column_eq (c : Dev nD) :
    broadcastInDim S100000x1 ![0] bcast_S100000_S100000x1_0 (StableHlo.after hostOps0_1 (StableHlo.after hostOps0 (W0 m ρ c)) (Proc.devRef .tc main_v10)) = invDeg (m ((c.tc : Thread nD τ).loc main_arg6)) := by
  rw [stretch1_choice, stretch0_mask, stretch0_recip, stretch0_zero, W0_arg6]
  rfl

/-- The reciprocal in-degrees as the first region finds them. -/
theorem entry0_inv (c : Dev nD) : V3 m ρ c main_v11 = invDeg (m ((c.tc : Thread nD τ).loc main_arg6)) := by
  show StableHlo.after hostOps0_2 (StableHlo.after hostOps0_1 (StableHlo.after hostOps0 (W0 m ρ c))) (Proc.devRef .tc main_v11) = _
  rw [stretch2_column, column_eq]

/-- The first region's input rows: the neighbour mean of the input features. -/
theorem entry0_rows (c : Dev nD) :
    V3 m ρ c main_v23 = meanAgg (invDeg (m ((c.tc : Thread nD τ).loc main_arg6))) (m ((c.tc : Thread nD τ).loc main_arg0)) (m ((c.tc : Thread nD τ).loc main_arg5)) (m ((c.tc : Thread nD τ).loc main_arg6)) := by
  show StableHlo.after hostOps0_2 (StableHlo.after hostOps0_1 (StableHlo.after hostOps0 (W0 m ρ c))) (Proc.devRef .tc main_v23) = _
  rw [stretch2_rows, column_eq, pre_arg0, pre_arg5, pre_arg6]

/-- The arguments the later segments read are as launched when the first region is entered. -/
theorem entry0_arg1 (c : Dev nD) : V3 m ρ c main_arg1 = (m ((c.tc : Thread nD τ).loc main_arg1)) := by
  show StableHlo.after hostOps0_2 (StableHlo.after hostOps0_1 (StableHlo.after hostOps0 (W0 m ρ c))) (Proc.devRef .tc main_arg1) = _
  dsimp only [hostOps0, hostOps0_1, hostOps0_2]
  after_results
theorem entry0_arg2 (c : Dev nD) : V3 m ρ c main_arg2 = (m ((c.tc : Thread nD τ).loc main_arg2)) := by
  show StableHlo.after hostOps0_2 (StableHlo.after hostOps0_1 (StableHlo.after hostOps0 (W0 m ρ c))) (Proc.devRef .tc main_arg2) = _
  dsimp only [hostOps0, hostOps0_1, hostOps0_2]
  after_results
theorem entry0_arg5 (c : Dev nD) : V3 m ρ c main_arg5 = (m ((c.tc : Thread nD τ).loc main_arg5)) := by
  show StableHlo.after hostOps0_2 (StableHlo.after hostOps0_1 (StableHlo.after hostOps0 (W0 m ρ c))) (Proc.devRef .tc main_arg5) = _
  dsimp only [hostOps0, hostOps0_1, hostOps0_2]
  after_results
theorem entry0_arg6 (c : Dev nD) : V3 m ρ c main_arg6 = (m ((c.tc : Thread nD τ).loc main_arg6)) := by
  show StableHlo.after hostOps0_2 (StableHlo.after hostOps0_1 (StableHlo.after hostOps0 (W0 m ρ c))) (Proc.devRef .tc main_arg6) = _
  dsimp only [hostOps0, hostOps0_1, hostOps0_2]
  after_results

/-! ## Between the regions -/

/-- What the first region leaves in its result array: the hidden layer of the neighbour mean of the features. -/
theorem exit0_hidden (c : Dev nD) :
    V4 m ρ c main_v24 = denseRelu (meanAgg (invDeg (m ((c.tc : Thread nD τ).loc main_arg6))) (m ((c.tc : Thread nD τ).loc main_arg0)) (m ((c.tc : Thread nD τ).loc main_arg5)) (m ((c.tc : Thread nD τ).loc main_arg6)))
      (m ((c.tc : Thread nD τ).loc main_arg1)) (m ((c.tc : Thread nD τ).loc main_arg2)) := by
  refine (W4_arr m ρ c 3).trans ?_
  rw [Blocks.final0 (V3 m ρ) c, entry0_rows, entry0_arg1, entry0_arg2]

set_option maxHeartbeats 16000000 in
/-- The second region's input rows: the neighbour mean of what the first region left. -/
theorem entry1_rows (c : Dev nD) :
    V5 m ρ c main_v36 = meanAgg (V4 m ρ c main_v11) (V4 m ρ c main_v24) (V4 m ρ c main_arg5) (V4 m ρ c main_arg6) := by
  show StableHlo.after hostOps1 (W4 m ρ c) (Proc.devRef .tc main_v36) = _
  dsimp only [hostOps1]
  after_results_simp
  rfl

/-- The first region writes none of the buffers the mean reads besides its own result. -/
theorem exit0_inv (c : Dev nD) : V4 m ρ c main_v11 = invDeg (m ((c.tc : Thread nD τ).loc main_arg6)) :=
  (W4_of_ne m ρ c main_v11 (by decide)).trans (entry0_inv m ρ c)
theorem exit0_arg5 (c : Dev nD) : V4 m ρ c main_arg5 = (m ((c.tc : Thread nD τ).loc main_arg5)) :=
  (W4_of_ne m ρ c main_arg5 (by decide)).trans (entry0_arg5 m ρ c)
theorem exit0_arg6 (c : Dev nD) : V4 m ρ c main_arg6 = (m ((c.tc : Thread nD τ).loc main_arg6)) :=
  (W4_of_ne m ρ c main_arg6 (by decide)).trans (entry0_arg6 m ρ c)

/-- The output layer's weights and bias are as launched when the second region is entered: the region only reads
    them, and they end as launched. -/
theorem entry1_arg3 (c : Dev nD) : V5 m ρ c main_arg3 = (m ((c.tc : Thread nD τ).loc main_arg3)) :=
  ((W6_arr m ρ c 1).trans (((dat1 (V5 m ρ) c).arrAt_in 1 rfl _).trans (A_eq1 (V5 m ρ) c 1))).symm.trans (W6_main_arg3 m ρ c)
theorem entry1_arg4 (c : Dev nD) : V5 m ρ c main_arg4 = (m ((c.tc : Thread nD τ).loc main_arg4)) :=
  ((W6_arr m ρ c 2).trans (((dat1 (V5 m ρ) c).arrAt_in 2 rfl _).trans (A_eq1 (V5 m ρ) c 2))).symm.trans (W6_main_arg4 m ρ c)

/-! ## The result -/

/-- The result buffer's final contents, as one function of the seven arguments. -/
theorem result_eq (c : Dev nD) :
    W6 m ρ c (Proc.devRef .tc main_v37)
      = dense (meanAgg (invDeg (m ((c.tc : Thread nD τ).loc main_arg6)))
          (denseRelu (meanAgg (invDeg (m ((c.tc : Thread nD τ).loc main_arg6))) (m ((c.tc : Thread nD τ).loc main_arg0)) (m ((c.tc : Thread nD τ).loc main_arg5)) (m ((c.tc : Thread nD τ).loc main_arg6)))
            (m ((c.tc : Thread nD τ).loc main_arg1)) (m ((c.tc : Thread nD τ).loc main_arg2)))
          (m ((c.tc : Thread nD τ).loc main_arg5)) (m ((c.tc : Thread nD τ).loc main_arg6))) (m ((c.tc : Thread nD τ).loc main_arg3)) (m ((c.tc : Thread nD τ).loc main_arg4)) := by
  refine (W6_arr m ρ c 3).trans ?_
  rw [Blocks.final1 (V5 m ρ) c, entry1_rows, exit0_inv, exit0_hidden, exit0_arg5, exit0_arg6, entry1_arg3, entry1_arg4]

end Cert.KernelIdeal.Result

end
-- ==== Proof.RefValue.lean ====
/-
  The idealized reference's result as the same function of its arguments.

  The reference evaluates each dense layer as one whole-array product: `X · W` by the host's `dot_general` (at the
  ideal values the plain sum of products over the contracted axis), the bias laid along every row by two broadcasts
  ([64] → [1, 64] → [100000, 64]), and for the hidden layer the maximum with a zero splat. Entry by entry these are the
  layer values of the specification. Around them the reference applies the very chain of operations the kernel
  program applies (the neighbour mean), so its result is `dense (a (denseRelu (a features) W1 b1)) W2 b2` with the
  same `a`.
-/
import proofs.«118038_j12618613915856_1_alg».proof.Proof.RefRun
import proofs.«118038_j12618613915856_1_alg».proof.Proof.MeanAgg
import proofs.«118038_j12618613915856_1_alg».proof.Proof.Spec
import Idealize.ShloMosaic.Lib.StackMember
import Idealize.ShloMosaic.Lib.KernelVsHost
import Idealize.ShloMosaic.Lib.ValueIdx
import Idealize.ShloMosaic.Lib.Pipeline.Value

set_option maxRecDepth 16384

noncomputable section

open scoped BigOperators

namespace Cert.ReferenceIdeal.RefValue

open Cert.ReferenceIdeal Cert.ReferenceIdeal.Gen Cert.GcnSpec
open Idealize.ShloMosaic Idealize.ShloMosaic.TcCoe Idealize.SL.Sem Idealize.ShloMosaic.ValueIdx

/-- A bias vector made one row and then laid along every row reads, at (r, q), the vector at q. -/
theorem bias_rows_apply {a n : ℕ} (hn : n ≠ 1) (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![a, n]⟩ ![0, 1]) (r : Fin a) (q : Fin n) :
    broadcastInDim ⟨2, ![a, n]⟩ ![0, 1] h2 (broadcastInDim ⟨2, ![1, n]⟩ ![1] h1 b) (ix2 r q) = b (ix1 q) := by
  refine (broadcastInDim_oneRow_apply h2 _ r q).trans ?_
  refine broadcastInDim_apply ![1] h1 b (ix2 (0 : Fin 1) q) (ix1 q) fun d => ?_
  match d with
  | ⟨0, _⟩ => show q.val = if n = 1 then 0 else q.val; rw [if_neg hn]

/-- A scalar splat reads the scalar everywhere. -/
theorem splat_apply {s : Shape} (h : (⟨0, ![]⟩ : Shape).BroadcastsInDim s ![]) (x : FVec Ideal ⟨0, ![]⟩ .f32) (j : s.Idx) :
    broadcastInDim s ![] h x j = x ix0 :=
  broadcastInDim_apply ![] h x j ix0 fun d => d.elim0

/-- The reference's hidden layer, as it spells it, is the specification's. -/
theorem hidden_eq (X : FVec Ideal S100000x64 .f32) (W : FVec Ideal S64x64 .f32) (b : FVec Ideal S64 .f32) :
    maximumf (addf (Host.dotGeneral dot_S100000x64_S64x64_S100000x64_1_0_0_1_n_n none X W)
        (broadcastInDim S100000x64 ![0, 1] bcast_S1x64_S100000x64_0_1 (broadcastInDim S1x64 ![1] bcast_S64_S1x64_1 b)))
      (broadcastInDim S100000x64 ![] bcast_S_S100000x64 (constant (F := Ideal) S_ .f32 0x00000000#32))
    = denseRelu X W b := by
  funext j
  obtain ⟨r, q, rfl⟩ : ∃ (r : Fin 100000) (q : Fin 64), j = ix2 r q := ⟨j 0, j 1, eq_ix2 j⟩
  rw [denseRelu_apply, maximumf_apply, addf_apply]
  refine congrArg₂ max (congrArg₂ (· + ·) ?_ ?_) ?_
  · exact StackMember.dotGeneral_plain_apply none X W r q
  · exact bias_rows_apply (by decide) b bcast_S64_S1x64_1 bcast_S1x64_S100000x64_0_1 r q
  · exact splat_apply bcast_S_S100000x64 _ (ix2 r q)

/-- The reference's output layer, as it spells it, is the specification's. -/
theorem output_eq (X : FVec Ideal S100000x64 .f32) (W : FVec Ideal S64x40 .f32) (b : FVec Ideal S40 .f32) :
    addf (Host.dotGeneral dot_S100000x64_S64x40_S100000x40_1_0_0_1_n_n none X W)
        (broadcastInDim S100000x40 ![0, 1] bcast_S1x40_S100000x40_0_1 (broadcastInDim S1x40 ![1] bcast_S40_S1x40_1 b))
    = dense X W b := by
  funext j
  obtain ⟨r, q, rfl⟩ : ∃ (r : Fin 100000) (q : Fin 40), j = ix2 r q := ⟨j 0, j 1, eq_ix2 j⟩
  rw [dense_apply, addf_apply]
  refine congrArg₂ (· + ·) ?_ ?_
  · exact StackMember.dotGeneral_plain_apply none X W r q
  · exact bias_rows_apply (by decide) b bcast_S40_S1x40_1 bcast_S1x40_S100000x40_0_1 r q

open Cert.KernelIdeal.MeanAgg in
/-- The reference's result term is the two layers around the two neighbour means. -/
theorem result_eq (m : (ℓ : Loc nD τ sig) → Buf (Elt Ideal) ℓ) (c : Dev nD) :
    Cert.ReferenceIdeal.ValueP.res_main_v44 (F := Ideal) m c
      = dense (meanAgg (invDeg (m ((c.tc : Thread nD τ).loc main_arg6)))
          (denseRelu (meanAgg (invDeg (m ((c.tc : Thread nD τ).loc main_arg6))) (m ((c.tc : Thread nD τ).loc main_arg0)) (m ((c.tc : Thread nD τ).loc main_arg5)) (m ((c.tc : Thread nD τ).loc main_arg6)))
            (m ((c.tc : Thread nD τ).loc main_arg1)) (m ((c.tc : Thread nD τ).loc main_arg2)))
          (m ((c.tc : Thread nD τ).loc main_arg5)) (m ((c.tc : Thread nD τ).loc main_arg6))) (m ((c.tc : Thread nD τ).loc main_arg3)) (m ((c.tc : Thread nD τ).loc main_arg4)) := by
  rw [← output_eq, ← hidden_eq]
  unfold Cert.ReferenceIdeal.ValueP.res_main_v44
  rfl

end Cert.ReferenceIdeal.RefValue

end
-- ==== Proof.lean ====
/-
  The certificate: a two-layer graph convolution whose dense layers run as row-blocked kernels, against the same
  network written with whole-array products.

  Both programs compute, for every node, the mean of its in-neighbours' feature rows (gather along the edges'
  sources, scatter-add into the targets, scale by the reciprocal in-degree), apply a 64→64 dense layer with relu,
  take the neighbour mean again, and apply a 64→40 dense layer. The neighbour mean is the same chain of array
  operations in both and is carried unopened (Proof/MeanAgg.lean). The dense layers differ only in how they are
  evaluated: the kernels take 10000 rows at a time, round both factors to bfloat16 — the identity on the extended
  reals —, multiply into a zero accumulator and add the bias; the reference multiplies all 100000 rows at once. Entry
  by entry both are `∑ c, x r c · w c q + b q` (Proof/Spec.lean; the kernel's side in Proof/KerBody.lean and
  Proof/KerBlocks.lean, the reference's in Proof/RefValue.lean), and only associativity-free identities of sums are
  used: no entry needs to be finite, so the precondition is never opened.

  The three frame claims are the programs' runs with the results dropped; the idealization rewrote nothing, so
  `preserves` is `True`.
-/
import proofs.«118038_j12618613915856_1_alg».proof.Defs
import proofs.«118038_j12618613915856_1_alg».proof.Proof.Gen.Kernel
import proofs.«118038_j12618613915856_1_alg».proof.Proof.Gen.Kernel.Skeleton
import proofs.«118038_j12618613915856_1_alg».proof.Proof.Gen.Kernel.Launch
import proofs.«118038_j12618613915856_1_alg».proof.Proof.Gen.Kernel.Points
import proofs.«118038_j12618613915856_1_alg».proof.Proof.Gen.Kernel.Frame
import proofs.«118038_j12618613915856_1_alg».proof.Proof.Gen.KernelIdeal
import proofs.«118038_j12618613915856_1_alg».proof.Proof.Gen.KernelIdeal.Skeleton
import proofs.«118038_j12618613915856_1_alg».proof.Proof.Gen.KernelIdeal.Launch
import proofs.«118038_j12618613915856_1_alg».proof.Proof.Gen.KernelIdeal.Points
import proofs.«118038_j12618613915856_1_alg».proof.Proof.Gen.KernelIdeal.Frame
import proofs.«118038_j12618613915856_1_alg».proof.Proof.Gen.ReferenceIdeal
import proofs.«118038_j12618613915856_1_alg».proof.Proof.Gen.Pre_finite_inputs
import proofs.«118038_j12618613915856_1_alg».proof.Proof.RefRun
import proofs.«118038_j12618613915856_1_alg».proof.Proof.KerRun
import proofs.«118038_j12618613915856_1_alg».proof.Proof.KerValue
import proofs.«118038_j12618613915856_1_alg».proof.Proof.RefValue
import Idealize.ShloMosaic.Adequacy
import Idealize.ShloMosaic.Init

noncomputable section

namespace Cert.Proof

open Idealize.ShloMosaic Idealize.SL.Sem Cert.GcnSpec Cert.KernelIdeal.MeanAgg

/-- The network's value as one function of the kernel program's seven argument arrays. -/
def network (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v37) :=
  dense (meanAgg (invDeg (m ((c.tc : Thread Cert.KernelIdeal.nD Cert.KernelIdeal.τ).loc Cert.KernelIdeal.main_arg6)))
      (denseRelu (meanAgg (invDeg (m ((c.tc : Thread Cert.KernelIdeal.nD Cert.KernelIdeal.τ).loc Cert.KernelIdeal.main_arg6))) (m ((c.tc : Thread Cert.KernelIdeal.nD Cert.KernelIdeal.τ).loc Cert.KernelIdeal.main_arg0)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
        (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg3)) (m ((c.tc : Thread Cert.KernelIdeal.nD Cert.KernelIdeal.τ).loc Cert.KernelIdeal.main_arg4))

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- Both idealized programs end with the result array at the network's value of the (agreeing) arguments. -/
theorem algebraic : Cert.algebraic_KernelIdeal_ReferenceIdeal := by
  intro m ρ m' ρ' _ hagree
  refine ⟨network m, ?_, ?_⟩
  · exact (θ_run Cert.KernelIdeal.defs _ _).mono
      (fun _ h c => ⟨(h c).1.trans (Cert.KernelIdeal.Result.result_eq m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6⟩ := hagree c
    rw [Cert.ReferenceIdeal.RefValue.result_eq m' c, h0, h1, h2, h3, h4, h5, h6]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
